-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S1024x4096 : Shape := ⟨2, ![1024, 4096]⟩
abbrev S16384x4096 : Shape := ⟨2, ![16384, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0_1 : Index := 0#32
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  ![0, v3.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4096x1024_S1024x4096_1_0 : S4096x1024.Transposes [1, 0] S1024x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.Spec.lean ====
/-
  The radial-basis value, stated once for both programs.

  For a sample row u and a centre row v of 1024 features the squared distance is expanded as
  ‖u‖² + ‖v‖² − 2·⟨u, v⟩, clamped below at zero, scaled by −1/(2σ²) with σ = 32, and exponentiated.
  One program multiplies the clamped distance by the word that denotes −1/2048; the other negates it and
  divides by the word that denotes 2048. On the extended reals these are the same number at every value of
  the distance, the infinities included: division by a nonzero real is multiplication by its reciprocal,
  and a sign moves freely across a product.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The word 0xBA000000 is −2⁻¹¹ = −1/2048. -/
theorem coeff_eq : Ideal.ofBits .f32 0xBA000000#32 = ((-(1 / 2048) : ℝ) : EReal) := by
  simp [Ideal.ofBits, Ideal.ieee, -EReal.coe_mul]; norm_num

/-- The word 0x45000000 is 2¹¹ = 2048. -/
theorem divisor_eq : Ideal.ofBits .f32 0x45000000#32 = ((2048 : ℝ) : EReal) := by
  simp [Ideal.ofBits, Ideal.ieee, -EReal.coe_mul]; norm_num

/-- Scaling by −1/2048 is negating and dividing by 2048, at every extended real. -/
theorem scale_law (d : EReal) :
    d * Ideal.ofBits .f32 0xBA000000#32 = Ideal.div (-d) (Ideal.ofBits .f32 0x45000000#32) := by
  rw [coeff_eq, divisor_eq, Ideal.div_coe (by norm_num : (2048 : ℝ) ≠ 0), EReal.coe_neg, mul_neg, neg_mul]

/-- The clamped squared distance of two feature rows, by the expansion ‖u‖² + ‖v‖² − 2⟨u, v⟩. The words for
    2 and 0 are kept as words: both programs spell the same ones. -/
def sqDist (u v : Fin 1024 → EReal) : EReal :=
  max (((∑ f : Fin 1024, u f * u f) + ∑ f : Fin 1024, v f * v f)
        - Ideal.ofBits .f32 0x40000000#32 * ∑ f : Fin 1024, u f * v f)
      (Ideal.ofBits .f32 0x00000000#32)

/-- The radial-basis value of two feature rows. -/
def rbf (u v : Fin 1024 → EReal) : EReal :=
  Ideal.exp (sqDist u v * Ideal.ofBits .f32 0xBA000000#32)

/-- The same value with the scale written as a negation and a quotient. -/
theorem rbf_eq_div (u v : Fin 1024 → EReal) :
    rbf u v = Ideal.exp (Ideal.div (-(sqDist u v)) (Ideal.ofBits .f32 0x45000000#32)) := by
  unfold rbf; rw [scale_law]

/-- The whole result: entry (b, k) is the radial-basis value of sample row b and centre row k. -/
def G (x : (⟨2, ![16384, 1024]⟩ : Shape).Idx → EReal) (c : (⟨2, ![4096, 1024]⟩ : Shape).Idx → EReal) :
    (⟨2, ![16384, 4096]⟩ : Shape).Idx → EReal :=
  fun i => rbf (fun f => x (ix2 (⟨(i 0).val, idx2_lt0 i⟩ : Fin 16384) f))
    (fun f => c (ix2 (⟨(i 1).val, idx2_lt1 i⟩ : Fin 4096) f))

/-- Read at coordinates. -/
theorem G_apply (x : (⟨2, ![16384, 1024]⟩ : Shape).Idx → EReal) (c : (⟨2, ![4096, 1024]⟩ : Shape).Idx → EReal)
    (b : Fin 16384) (k : Fin 4096) :
    G x c (ix2 b k) = rbf (fun f => x (ix2 b f)) (fun f => c (ix2 k f)) := rfl

end Cert.Rbf

end
-- ==== Proof.RefSide.lean ====
/-
  The reference program's result is the radial-basis value.

  Read one operation at a time, entry (b, k) of the reference's last stage is the exponential of the negated,
  clamped expansion ‖x_b‖² + ‖c_k‖² − 2⟨x_b, c_k⟩ divided by 2048: the two squared norms are the host's row
  sums (each started from the zero word, which adds nothing), the inner product is the contraction over the
  feature axis, and the broadcasts only repeat a row's or a column's statistic.
-/
import proofs.«171603_j76819785056465_2_alg».proof.Proof.Gen.ReferenceIdeal.Read
import proofs.«171603_j76819785056465_2_alg».proof.Proof.Spec

noncomputable section

open scoped BigOperators

namespace Cert.Rbf.Reference

open Cert.ReferenceIdeal Cert.ReferenceIdeal.Read Idealize.ShloMosaic Idealize.ShloMosaic.ValueIdx Cert.Rbf

/-- Row b of the samples, as the first squared norm's sum indexes it. -/
theorem idx_x (b : Fin 16384) (k : Fin 4096) (f : Fin 1024) :
    idx_main_v1 (idx_main_v2 (idx_main_v7 (ix2 b k))) f = ix2 b f :=
  funext fun a => Fin.ext (by match a with | ⟨0, _⟩ => rfl | ⟨1, _⟩ => rfl)

/-- Row k of the centres, as the second squared norm's sum indexes it. -/
theorem idx_c (b : Fin 16384) (k : Fin 4096) (f : Fin 1024) :
    idx_main_v4 (idx_main_v6 (idx_main_v8 (ix2 b k))) f = ix2 k f :=
  funext fun a => Fin.ext (by match a with | ⟨0, _⟩ => rfl | ⟨1, _⟩ => rfl)

/-- The contraction's left factor is the sample row. -/
theorem idx_l (b : Fin 16384) (k : Fin 4096) (f : Fin 1024) : lidx_main_v5 (ix2 b k) f = ix2 b f :=
  funext fun a => Fin.ext (by match a with | ⟨0, _⟩ => rfl | ⟨1, _⟩ => rfl)

/-- The contraction's right factor is the centre row. -/
theorem idx_r (b : Fin 16384) (k : Fin 4096) (f : Fin 1024) : ridx_main_v5 (ix2 b k) f = ix2 k f :=
  funext fun a => Fin.ext (by match a with | ⟨0, _⟩ => rfl | ⟨1, _⟩ => rfl)

/-- The reference's last stage is the radial-basis value of the two argument arrays. -/
theorem value_eq (x0 : (⟨S16384x1024, .f32⟩ : BufTy).Contents (Elt Ideal))
    (x1 : (⟨S4096x1024, .f32⟩ : BufTy).Contents (Elt Ideal)) :
    val_main_v18 (F := Ideal) x0 x1 = G x0 x1 := by
  funext i
  obtain ⟨b, k, rfl⟩ : ∃ (b : Fin 16384) (k : Fin 4096), i = ix2 b k := ⟨i 0, i 1, eq_ix2 i⟩
  rw [G_apply, rbf_eq_div]
  unfold sqDist
  rw [val_main_v18_apply, val_main_v17_apply, val_main_v16_apply, val_main_cst_3_apply, val_main_v15_apply,
    val_main_v14_apply, val_main_v13_apply, val_main_cst_2_apply, val_main_v12_apply, val_main_v11_apply,
    val_main_v10_apply, val_main_cst_1_apply, val_main_v5_apply, val_main_v9_apply, val_main_v7_apply,
    val_main_v2_apply, val_main_v1_apply, val_main_cst_apply, val_main_v8_apply, val_main_v6_apply,
    val_main_v4_apply, val_main_cst_0_apply]
  simp only [val_main_v0_apply, val_main_v3_apply, idx_x, idx_c, idx_l, idx_r, Ideal.hostUnary_exp_def,
    Ideal.hostDivf_def, Ideal.hostNegf_def, Ideal.negf_def, Ideal.maximumf_def, Ideal.subf_def, Ideal.mulf_def,
    Ideal.addf_def, Ideal.ofBits_def, Ideal.ofBits_zero_f32, zero_add]

end Cert.Rbf.Reference

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  The kernel body's stored value, read at one entry.

  From a 1024 × 1024 block X of sample rows and a 1024 × 1024 block W of transposed centres (features down,
  centres across) the body stores, at (p, q), the radial-basis value of row p of X and column q of W:
  the row sums of X∘X re-laid as a column and repeated along the lanes, the column sums of W∘W re-laid as a
  row and repeated down the sublanes, and the matrix product X·W into a zero accumulator, combined pointwise.
  The changes of float format are the identity on extended reals, and the cast of W to its own shape is the
  identity on the values.
-/
import proofs.«171603_j76819785056465_2_alg».proof.Proof.Gen.KernelIdeal.Skeleton
import proofs.«171603_j76819785056465_2_alg».proof.Proof.Spec
import proofs.«171603_j76819785056465_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Body

open Cert.KernelIdeal Cert.KernelIdeal.Gen Idealize.ShloMosaic Idealize.ShloMosaic.ValueIdx Cert.Rbf

/-- Summing along the lanes (axis 1) at row p runs over the entries (p, f). -/
theorem lift_lane (h : S1024x1024.Reduces [1] S1024) (p f : Fin 1024) : h.lift (ix1 p) f = ix2 p f :=
  funext fun a => Fin.ext (by match a with | ⟨0, _⟩ => rfl | ⟨1, _⟩ => rfl)

/-- Summing down the sublanes (axis 0) at column q runs over the entries (f, q). -/
theorem lift_sublane (h : S1024x1024.Reduces [0] S1024) (q f : Fin 1024) : h.lift (ix1 q) f = ix2 f q :=
  funext fun a => Fin.ext (by match a with | ⟨0, _⟩ => rfl | ⟨1, _⟩ => rfl)

/-- The squared norm of row p, kept as a column and repeated along the lanes, read at (p, q). -/
theorem rowNorm_apply (x : FVec Ideal S1024x1024 .f32) (h : S1024x1024.Reduces [1] S1024)
    (hc : S1024.ShapeCasts S1024x1) (hb : S1024x1.Broadcasts S1024x1024) (p q : Fin 1024) :
    broadcastTo S1024x1024 (shapeCast S1024x1 (multiReduction .add [1] S1024 (mulf x x) 0x00000000#32 h (.inl rfl) rfl) hc) hb
        (ix2 p q)
      = ∑ f : Fin 1024, x (ix2 p f) * x (ix2 p f) := by
  refine (Cert.Lib.Column.broadcastTo_shapeCast_column_apply _ hc hb p q).trans ?_
  refine (Ideal.multiReduction_add_single (mulf x x) 0x00000000#32 h (.inl rfl) rfl (ix1 p)).trans ?_
  refine Finset.sum_congr rfl fun f _ => ?_
  rw [lift_lane h p f]
  rfl

/-- The squared norm of column q, kept as a row and repeated down the sublanes, read at (p, q). -/
theorem colNorm_apply (w : FVec Ideal S1024x1024 .f32) (h : S1024x1024.Reduces [0] S1024)
    (hc : S1024.ShapeCasts S1x1024) (hb : S1x1024.Broadcasts S1024x1024) (p q : Fin 1024) :
    broadcastTo S1024x1024 (shapeCast S1x1024 (multiReduction .add [0] S1024 (mulf w w) 0x00000000#32 h (.inl rfl) rfl) hc) hb
        (ix2 p q)
      = ∑ f : Fin 1024, w (ix2 f q) * w (ix2 f q) := by
  refine (broadcastTo_1b_ab_apply _ hb p q).trans ?_
  refine (shapeCast_a_1a_apply _ hc (0 : Fin 1) q).trans ?_
  refine (Ideal.multiReduction_add_single (mulf w w) 0x00000000#32 h (.inl rfl) rfl (ix1 q)).trans ?_
  refine Finset.sum_congr rfl fun f _ => ?_
  rw [lift_sublane h q f]
  rfl

/-- The body's dimension numbers: rows of the left operand against columns of the right. -/
abbrev dims : DotDims S1024x1024 S1024x1024 S1024x1024 := dot_S1024x1024_S1024x1024_S1024x1024_1_0_0_1_n_n

theorem lhs_row (i : S1024x1024.Idx) (k : dims.contr.Idx) : (dims.lhsIdx i k 0).val = (i 0).val := by
  unfold DotDims.lhsIdx
  rw [dif_neg (show ¬(0 : Fin S1024x1024.rank) ∈ dims.lhsBatch by decide),
    dif_pos (show (0 : Fin S1024x1024.rank) ∈ dims.lhsNonContracting by decide)]
  rfl

theorem rhs_col (i : S1024x1024.Idx) (k : dims.contr.Idx) : (dims.rhsIdx i k 1).val = (i 1).val := by
  unfold DotDims.rhsIdx
  rw [dif_neg (show ¬(1 : Fin S1024x1024.rank) ∈ dims.rhsBatch by decide),
    dif_pos (show (1 : Fin S1024x1024.rank) ∈ dims.rhsNonContracting by decide)]
  rfl

/-- The matrix product into a zero accumulator, read at (p, q): the inner product of row p and column q. -/
theorem dot_apply {φ₁ φ₂ : FTy} (a : FVec Ideal S1024x1024 φ₁) (b : FVec Ideal S1024x1024 φ₂) (p q : Fin 1024) :
    matmul dims none a b (constant S1024x1024 .f32 0x00000000#32) (ix2 p q) = ∑ f : Fin 1024, a (ix2 p f) * b (ix2 f q) := by
  refine (Ideal.matmul_constant_zero_apply dims none a b (ix2 p q)).trans ?_
  rw [← Equiv.sum_comp (contrEquiv1 dims 1024 rfl rfl).symm]
  refine Finset.sum_congr rfl fun f _ => ?_
  have hk := contrEquiv1_symm_val dims 1024 rfl rfl f
  have el : dims.lhsIdx (ix2 p q) ((contrEquiv1 dims 1024 rfl rfl).symm f) = ix2 p f := funext fun a => Fin.ext (by
    match a with
    | ⟨0, _⟩ => exact lhs_row _ _
    | ⟨1, _⟩ => exact (dims.lhsIdx_val_of_single rfl _ _).trans hk)
  have er : dims.rhsIdx (ix2 p q) ((contrEquiv1 dims 1024 rfl rfl).symm f) = ix2 f q := funext fun a => Fin.ext (by
    match a with
    | ⟨0, _⟩ => exact (dims.rhsIdx_val_of_single rfl _ _).trans hk
    | ⟨1, _⟩ => exact rhs_col _ _)
  rw [el, er]

/-- THE STORED VALUE at (p, q): the radial-basis value of row p of the sample block and column q of the
    transposed-centre block. -/
theorem pay_apply (x : Vec Ideal S1024x1024 .f32) (w : Vec Ideal S1024x1024 .bf16) (p q : Fin 1024) :
    k0_pay1 (F := Ideal) x w (ix2 p q) = rbf (fun f => x (ix2 p f)) (fun f => w (ix2 f q)) := by
  have hA := rowNorm_apply x reduces_S1024x1024_S1024 shapeCasts_S1024_S1024x1 broadcasts_S1024x1_S1024x1024 p q
  have hB := colNorm_apply (extf .f32 w bitsLt_bf16_f32) reduces_S1024x1024_S1024_2 shapeCasts_S1024_S1x1024
    broadcasts_S1x1024_S1024x1024 p q
  have hM := dot_apply (φ₁ := .bf16) (φ₂ := .bf16) (truncf .bf16 x bitsLt_bf16_f32) w p q
  unfold k0_pay1
  simp only [shapeCast_self]
  show Ideal.exp (max ((broadcastTo S1024x1024 _ _ (ix2 p q) + broadcastTo S1024x1024 _ _ (ix2 p q))
      - Ideal.ofBits .f32 0x40000000#32 * matmul dims none _ _ _ (ix2 p q)) (Ideal.ofBits .f32 0x00000000#32)
      * Ideal.ofBits .f32 0xBA000000#32) = _
  rw [hA, hB, hM]
  rfl

end Cert.Rbf.Body

end
-- ==== Proof.Blocks.lean ====
/-
  From blocks to the whole array.

  The grid has 16 × 4 points. At point (I, J) the body reads rows 1024·I … 1024·I + 1023 of the samples, reads
  the whole array of transposed centres (features down, centres across) and takes from it the columns
  1024·J … 1024·J + 1023, and writes back block (I, J) of the result. The transposed-centre array is what the
  two host operations before the region leave: the transpose of the centres, its change of float format the
  identity on extended reals. So entry (p, q) of the block written at (I, J) is the radial-basis value of
  sample row 1024·I + p and centre row 1024·J + q, which is entry (1024·I + p, 1024·J + q) of the whole
  result; the 64 blocks tile the result array, so the array ends holding the radial-basis value everywhere.
-/
import proofs.«171603_j76819785056465_2_alg».proof.Proof.Gen.KernelIdeal.Value
import proofs.«171603_j76819785056465_2_alg».proof.Proof.Payload
import Idealize.ShloMosaic.Lib.Pipeline.Value
import Idealize.ShloMosaic.Lib.ValueLayout
import Idealize.ShloMosaic.Lib.StableHlo.Run
import Idealize.ShloMosaic.Lib.Tactic

noncomputable section

namespace Cert.Rbf.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Rbf

theorem hz : (![0, 0] : Fin 2 → Nat) = fun _ => 0 := funext fun a => by fin_cases a <;> rfl

/-! ## What the body leaves in the output's staging buffer -/

section AnyValues
variable {F : FTy → Type} [FloatOps F]

/-- The body's one store covers the output block with its computed value of the sample block and of the
    1024 columns of the transposed-centre array that start at the point's column offset. -/
theorem out_eq (c : Dev nD) (i : grid0.Coords) (a2 : Memref sig .tc .vmem S1024x1024 .f32) (h2 : a2.IsWhole)
    (a3 : Memref sig .tc .vmem S1024x4096 .bf16) (h3 : a3.IsWhole) (a4 : Memref sig .tc .vmem S1024x1024 .f32)
    (h4 : a4.IsWhole) (x0 : Vec F S1024x1024 .f32) (x1 : Vec F S1024x4096 .bf16) :
    out0_A_2 c i a2 h2 a3 h3 a4 h4 x0 x1
      = k0_pay1 x0 (View.ld x1 (Rect.unit (s := S1024x4096) (k0_off1 i) S1024x1024.size (k0_off1_inb i))) := by
  unfold out0_A_2
  rw [View.read_writes_eq_canon _ _ _ (cover0_A_2 c i a2 h2 a3 h3 a4 h4 x0 x1)]
  unfold kernelRun0_A
  dsimp only
  rw [View.canon_unit_zero hz]
  simp only [View.readAt_eq_ld, h2.read_unread, h3.read_unread, View.ld_unit_zero (S := S1024x1024) hz]

end AnyValues

/-! ## One point's block, entry by entry -/

/-- If the sample block holds rows 1024·I + p of X and the centre block holds, at (f, q), feature f of centre
    row 1024·J + q of C, the stored value at (p, q) is entry (1024·I + p, 1024·J + q) of the result. -/
theorem point_value (X : S16384x1024.Idx → EReal) (C : S4096x1024.Idx → EReal)
    (x0 : Vec Ideal S1024x1024 .f32) (w : Vec Ideal S1024x1024 .bf16) (I J : ℕ) (hI : I < 16) (hJ : J < 4)
    (hx : ∀ p f : Fin 1024, x0 (ix2 p f) = X (ix2 (⟨I * 1024 + p.val, by have := p.isLt; omega⟩ : Fin 16384) f))
    (hw : ∀ f q : Fin 1024, w (ix2 f q) = C (ix2 (⟨J * 1024 + q.val, by have := q.isLt; omega⟩ : Fin 4096) f))
    (p q : Fin 1024) :
    k0_pay1 (F := Ideal) x0 w (ix2 p q)
      = G X C (ix2 (⟨I * 1024 + p.val, by have := p.isLt; omega⟩ : Fin 16384)
          (⟨J * 1024 + q.val, by have := q.isLt; omega⟩ : Fin 4096)) := by
  rw [Body.pay_apply, G_apply]
  exact congrArg₂ rbf (funext fun f => hx p f) (funext fun f => hw f q)

/-! ## The arrays as the region finds them, and the windows' blocks -/

variable (m : (ℓ : Loc nD τ sig) → Buf (Elt Ideal) ℓ) (ρ : Dev nD → PrngReg)

/-- The second window's array is the transpose of the centres (its change of float format is the identity). -/
theorem V_v1 (c : Dev nD) : V m c main_v1
    = (truncf (F := Ideal) .bf16 (transpose S1024x4096 [1, 0]
        (m ((c : Thread nD τ).loc main_arg1) : S4096x1024.Idx → EReal) transposes_S4096x1024_S1024x4096_1_0)
        bitsLt_bf16_f32 : FVec Ideal S1024x4096 .bf16) := by
  dsimp only [V, hostOps0]; after_results

/-- Read at (f, k): feature f of centre row k. -/
theorem V_v1_apply (c : Dev nD) (f : Fin 1024) (k : Fin 4096) :
    (V m c main_v1 : S1024x4096.Idx → EReal) (ix2 f k) = m ((c : Thread nD τ).loc main_arg1) (ix2 k f) := by
  rw [V_v1]
  exact transpose_ix2_apply (m ((c : Thread nD τ).loc main_arg1)) transposes_S4096x1024_S1024x4096_1_0 f k

/-- The sample window's block at a point, read at an index of the block. -/
theorem iblk0_apply (c : Dev nD) (t : Fin cfg0.N) (y : S1024x1024.Idx) :
    (iblk m c 0 t : S1024x1024.Idx → EReal) y = m ((c : Thread nD τ).loc main_arg0) (((cfg0.win 0).blk t).view.emb y) := by
  show V m c main_arg0 (((cfg0.win 0).blk t).view.emb y) = _
  rw [V_main_arg0]

/-- The transposed-centre window's block at a point, read at an index of the block. -/
theorem iblk1_apply (c : Dev nD) (t : Fin cfg0.N) (y : S1024x4096.Idx) :
    (iblk m c 1 t : S1024x4096.Idx → EReal) y = (V m c main_v1 : S1024x4096.Idx → EReal) (((cfg0.win 1).blk t).view.emb y) := rfl

/-- The printed index maps and the body's column offset, decided over the 64 points: the sample window moves
    with the output's row-block index, the transposed-centre window never moves, and the body's column offset
    is 1024 times the output's column-block index. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ k0_off1 (grid0.coords t) (0 : Fin 2) = 0
    ∧ k0_off1 (grid0.coords t) (1 : Fin 2) = 1024 * win0_2.index t (1 : Fin 2)
    ∧ win0_2.index t (0 : Fin 2) < 16 ∧ win0_2.index t (1 : Fin 2) < 4 :=
  (by decide +kernel : ∀ t : Fin grid0.N, _)

/-- Every block of the result is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The result array: the radial-basis value of the two argument arrays. -/
abbrev result (c : Dev nD) : Buf (Elt Ideal) ((c : Thread nD τ).loc main_v2) :=
  G (m ((c : Thread nD τ).loc main_arg0)) (m ((c : Thread nD τ).loc main_arg1))

/-- What point t writes back is block t of the result. -/
theorem flushed_eq (c : Dev nD) (t : Fin cfg0.N) :
    (dats m 0 c).flushed 2 t = ((cfg0.win 2).blk t).view.read (Elt Ideal) (result m c) := by
  rw [Cert.KernelIdeal.Value.flushed2_A, out_eq]
  obtain ⟨e00, e01, e10, e11, o0, o1, hI, hJ⟩ := idx_facts t
  funext j
  show k0_pay1 (iblk m c 0 t) (View.ld (iblk m c 1 t)
      (Rect.unit (s := S1024x4096) (k0_off1 (grid0.coords t)) S1024x1024.size (k0_off1_inb (grid0.coords t)))) j
    = result m c (((cfg0.win 2).blk t).view.emb j)
  obtain ⟨p, q, rfl⟩ : ∃ (p q : Fin 1024), j = ix2 p q := ⟨j 0, j 1, eq_ix2 j⟩
  refine (point_value (m ((c : Thread nD τ).loc main_arg0)) (m ((c : Thread nD τ).loc main_arg1)) (iblk m c 0 t)
    (View.ld (iblk m c 1 t) (Rect.unit (s := S1024x4096) (k0_off1 (grid0.coords t)) S1024x1024.size (k0_off1_inb (grid0.coords t))))
    (win0_2.index t (0 : Fin 2)) (win0_2.index t (1 : Fin 2)) hI hJ ?_ ?_ p q).trans ?_
  · intro p f
    refine (iblk0_apply m c t (ix2 p f)).trans ?_
    refine congrArg (m ((c : Thread nD τ).loc main_arg0)) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 1024 + 1 * f.val = f.val; omega
  · intro f q
    refine (iblk1_apply m c t
      ((Rect.unit (s := S1024x4096) (k0_off1 (grid0.coords t)) S1024x1024.size (k0_off1_inb (grid0.coords t))).emb (ix2 f q))).trans ?_
    have hk : ((cfg0.win 1).blk t).view.emb
        ((Rect.unit (s := S1024x4096) (k0_off1 (grid0.coords t)) S1024x1024.size (k0_off1_inb (grid0.coords t))).emb (ix2 f q))
        = ix2 f (⟨win0_2.index t (1 : Fin 2) * 1024 + q.val, by have := q.isLt; omega⟩ : Fin 4096) := by
      funext a; apply Fin.ext
      match a with
      | ⟨0, _⟩ =>
        show win0_1.index t (0 : Fin 2) * 1024 + 1 * (k0_off1 (grid0.coords t) (0 : Fin 2) + 1 * f.val) = f.val
        omega
      | ⟨1, _⟩ =>
        show win0_1.index t (1 : Fin 2) * 4096 + 1 * (k0_off1 (grid0.coords t) (1 : Fin 2) + 1 * q.val)
          = win0_2.index t (1 : Fin 2) * 1024 + q.val
        omega
    rw [hk]
    exact V_v1_apply m c f _
  · refine congrArg (result m c) (funext fun a => Fin.ext ?_)
    match a with
    | ⟨0, _⟩ => show win0_2.index t (0 : Fin 2) * 1024 + p.val = win0_2.index t (0 : Fin 2) * 1024 + 1 * p.val; omega
    | ⟨1, _⟩ => show win0_2.index t (1 : Fin 2) * 1024 + q.val = win0_2.index t (1 : Fin 2) * 1024 + 1 * q.val; omega

/-- An index of the result array is in point t's block iff each coordinate is in the block's range. -/
theorem mem_blk (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- The blocks tile the result: entry (r, s) lies in the block of the point with block indices (r / 1024, s / 1024). -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the radial-basis value of the argument arrays. -/
theorem final (c : Dev nD) : (dats m 0 c).arrAt 2 cfg0.N = result m c :=
  (dats m 0 c).arrAt_eq_of_cover 2 (result m c) (fun t _ => flushed_eq m c t) cover

/-- The kernel program's run: the result array at the radial-basis value, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Rbf.Blocks

end
-- ==== Proof.lean ====
/-
  A radial-basis kernel matrix against its reference: entry (b, k) of the result is
  exp(−max(‖x_b‖² + ‖c_k‖² − 2⟨x_b, c_k⟩, 0) / 2048) for sample row x_b and centre row c_k of 1024 features.

  The two programs differ in arrangement only. One transposes the centres first, walks a 16 × 4 grid of
  1024 × 1024 result blocks, forms each block's row norms, column norms and matrix product from the blocks it
  holds, and scales the clamped distance by the word that denotes −1/2048; the other forms the two norm vectors
  and one whole matrix product, negates the clamped distance and divides by the word that denotes 2048. Read
  on the extended reals, where a change of float format is the identity and every sum is exact, both results
  are one function of the two arguments: a block's entry (p, q) at grid point (I, J) is the whole result's
  entry (1024·I + p, 1024·J + q), the blocks tile the result, and multiplying by −1/2048 is negating and
  dividing by 2048 at every extended real. No finiteness of the inputs is used.

  The three frames are the programs' runs with the results dropped; nothing was rewritten between the printed
  kernel and its idealization, so that conjunct is trivial.
-/
import proofs.«171603_j76819785056465_2_alg».proof.Defs
import proofs.«171603_j76819785056465_2_alg».proof.Proof.Gen.Kernel
import proofs.«171603_j76819785056465_2_alg».proof.Proof.Gen.Kernel.Skeleton
import proofs.«171603_j76819785056465_2_alg».proof.Proof.Gen.Kernel.Launch
import proofs.«171603_j76819785056465_2_alg».proof.Proof.Gen.Kernel.Points
import proofs.«171603_j76819785056465_2_alg».proof.Proof.Gen.Kernel.Frame
import proofs.«171603_j76819785056465_2_alg».proof.Proof.Gen.KernelIdeal
import proofs.«171603_j76819785056465_2_alg».proof.Proof.Gen.KernelIdeal.Skeleton
import proofs.«171603_j76819785056465_2_alg».proof.Proof.Gen.KernelIdeal.Launch
import proofs.«171603_j76819785056465_2_alg».proof.Proof.Gen.KernelIdeal.Points
import proofs.«171603_j76819785056465_2_alg».proof.Proof.Gen.KernelIdeal.Frame
import proofs.«171603_j76819785056465_2_alg».proof.Proof.Gen.ReferenceIdeal
import proofs.«171603_j76819785056465_2_alg».proof.Proof.Gen.Pre_finite_inputs
import proofs.«171603_j76819785056465_2_alg».proof.Proof.Gen.KernelIdeal.Value
import proofs.«171603_j76819785056465_2_alg».proof.Proof.Gen.ReferenceIdeal.Run
import proofs.«171603_j76819785056465_2_alg».proof.Proof.Gen.ReferenceIdeal.Read
import proofs.«171603_j76819785056465_2_alg».proof.Proof.RefSide
import proofs.«171603_j76819785056465_2_alg».proof.Proof.Blocks
import Idealize.ShloMosaic.Adequacy
import Idealize.ShloMosaic.Init

noncomputable section

namespace Cert.Proof

open Idealize.ShloMosaic Idealize.SL.Sem

/-- The printed kernel program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference program's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its idealization. -/
theorem preserves : Cert.preserves_Kernel_KernelIdeal := trivial

/-- From arguments that agree, both programs end with the radial-basis value of those arguments in their
    result arrays: the kernel block by block, the reference stage by stage. -/
theorem algebraic : Cert.algebraic_KernelIdeal_ReferenceIdeal := by
  intro m ρ m' ρ' _ hagree
  refine ⟨fun c => Cert.Rbf.Blocks.result m c, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Reference.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
